-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S14336x4096 : Shape := ⟨2, ![14336, 4096]⟩
abbrev S4096x14336 : Shape := ⟨2, ![4096, 14336]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4096x4096 .f32) (main_arg1 : FVec F S14336x4096 .f32) (main_arg2 : FVec F S4096x14336 .f32) (main_arg3 : FVec F S14336x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4096x4096 : Shape := ⟨2, ![4096, 4096]⟩
abbrev S14336x4096 : Shape := ⟨2, ![14336, 4096]⟩
abbrev S4096x14336 : Shape := ⟨2, ![4096, 14336]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S4096x14336, .f32⟩
  | .hbm, ⟨3, _⟩ => ⟨S14336x4096, .f32⟩
  | .hbm, ⟨4, _⟩ => ⟨S4096x4096, .bf16⟩
  | .hbm, ⟨5, _⟩ => ⟨S14336x4096, .bf16⟩
  | .hbm, ⟨6, _⟩ => ⟨S14336x4096, .bf16⟩
  | .hbm, ⟨7, _⟩ => ⟨S4096x14336, .bf16⟩
  | .hbm, ⟨8, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .bf16 = 32 ∨ (Rect.block (s := S14336x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .bf16 = 32 ∨ (Rect.block (s := S14336x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x14336.size a
  hwx0_3 : ∀ i : grid0.Coords, EltTy.bits .bf16 = 32 ∨ (Rect.block (s := S4096x14336) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S14336x4096 : Shape := ⟨2, ![14336, 4096]⟩
abbrev S4096x14336 : Shape := ⟨2, ![4096, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S4096x14336, .f32⟩
  | .hbm, ⟨3, _⟩ => ⟨S14336x4096, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S_, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  dot_S4096x4096_S14336x4096_S4096x14336_1_1_0_0_n_n_wf : DotDims.WF S4096x4096 S14336x4096 S4096x14336 [1] [1] [0] [0] [] []
  dot_S4096x14336_S4096x14336_S4096x4096_1_1_0_0_n_n_wf : DotDims.WF S4096x14336 S4096x14336 S4096x4096 [1] [1] [0] [0] [] []

variable [Facts₀]

def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf
def dot_S4096x14336_S4096x14336_S4096x4096_1_1_0_0_n_n : DotDims S4096x14336 S4096x14336 S4096x4096 where
  lhsContracting := [1]
  rhsContracting := [1]
  lhsNonContracting := [0]
  rhsNonContracting := [0]
  lhsBatch := []
  rhsBatch := []
  wf := dot_S4096x14336_S4096x14336_S4096x4096_1_1_0_0_n_n_wf

class Facts : Prop extends Facts₀ where

variable [Facts]
-- ==== Proof.LibTileSum.lean ====
/-
  A sum over `a · b` consecutive positions, taken tile by tile: `a` tiles of `b` positions each, position
  `j · b + r` being position `r` of tile `j`.
-/
import Mathlib.Algebra.BigOperators.Fin
import Mathlib.Logic.Equiv.Fin.Basic

open scoped BigOperators

namespace Cert.LibTileSum

/-- Position `r` of tile `j` is a position of the whole range. -/
theorem tile_pos_lt {a b : ℕ} (j : Fin a) (r : Fin b) : j.val * b + r.val < a * b :=
  calc j.val * b + r.val < j.val * b + b := Nat.add_lt_add_left r.isLt _
    _ = (j.val + 1) * b := (Nat.succ_mul _ _).symm
    _ ≤ a * b := Nat.mul_le_mul_right _ j.isLt

/-- The sum over the whole range is the sum over the tiles of each tile's sum. -/
theorem sum_fin_mul {M : Type*} [AddCommMonoid M] (a b : ℕ) (f : Fin (a * b) → M) :
    ∑ e, f e = ∑ j : Fin a, ∑ r : Fin b, f ⟨j.val * b + r.val, tile_pos_lt j r⟩ := by
  rw [← Equiv.sum_comp finProdFinEquiv f, Fintype.sum_prod_type]
  refine Finset.sum_congr rfl fun j _ => Finset.sum_congr rfl fun r _ => congrArg f (Fin.ext ?_)
  rw [finProdFinEquiv_apply_val, Nat.mul_comm, Nat.add_comm]

end Cert.LibTileSum
-- ==== Proof.LibGatedFfn.lean ====
/-
  The gated feed-forward layer as one function of its four matrices, entry by entry, over the extended reals.

  For an input `x : [T, H]`, a gate matrix `w1 : [I, H]`, an up matrix `w3 : [I, H]` and a down matrix `w2 : [E, I]`
  (each weight matrix stored with its output features as rows):

    rowDot x w t i  = ∑ₕ x(t,h) · w(i,h)                                row `t` of `x` against row `i` of `w`
    hiddenAt t i  = rowDot x w1 t i · σ(rowDot x w1 t i) · rowDot x w3 t i    σ the logistic function: the gate `g · σ(g)` times the up value
    ffnAt t e     = ∑ᵢ hiddenAt t i · w2(e,i)                            row `t` of the hidden layer against row `e` of `w2`

  Every sum is a finite sum in the additive commutative monoid of the extended reals, so regrouping one needs no
  finiteness of the entries. Two facts about these functions are used later. They depend on their matrices only through
  the rows they read (`hiddenAt_congr`): a block of rows cut out of a larger matrix gives the same values as the larger
  matrix at the shifted row numbers. And the sum over `a · b` hidden units can be taken tile by tile, `a` tiles of `b`
  units each (`ffnAt_tiles`).
-/
import Idealize.ShloMosaic.Lib.ValueIdx
import Idealize.ShloMosaic.PureOps.Ideal.Laws
import proofs.«118474_j62397284876805_2_alg».proof.Proof.LibTileSum

noncomputable section

open scoped BigOperators

namespace Cert.LibGatedFfn

open Idealize.ShloMosaic Idealize.ShloMosaic.ValueIdx

variable {T H I E : ℕ}

/-- Row `t` of `x` against row `i` of `w`: `∑ₕ x(t,h) · w(i,h)`. -/
def rowDot (x : (⟨2, ![T, H]⟩ : Shape).Idx → EReal) (w : (⟨2, ![I, H]⟩ : Shape).Idx → EReal) (t : Fin T) (i : Fin I) : EReal :=
  ∑ h : Fin H, x (ix2 t h) * w (ix2 i h)

/-- Hidden unit `i` of token `t`: the gate projection times its logistic value, times the up projection. -/
def hiddenAt (x : (⟨2, ![T, H]⟩ : Shape).Idx → EReal) (w1 w3 : (⟨2, ![I, H]⟩ : Shape).Idx → EReal) (t : Fin T) (i : Fin I) : EReal :=
  rowDot x w1 t i * Ideal.logistic (rowDot x w1 t i) * rowDot x w3 t i

/-- Output feature `e` of token `t`: the hidden layer of the token against row `e` of the down matrix. -/
def ffnAt (x : (⟨2, ![T, H]⟩ : Shape).Idx → EReal) (w1 : (⟨2, ![I, H]⟩ : Shape).Idx → EReal)
    (w2 : (⟨2, ![E, I]⟩ : Shape).Idx → EReal) (w3 : (⟨2, ![I, H]⟩ : Shape).Idx → EReal) (t : Fin T) (e : Fin E) : EReal :=
  ∑ i : Fin I, hiddenAt x w1 w3 t i * w2 (ix2 e i)

/-- A projection reads one row of each matrix: two pairs of matrices (of any row counts) that agree on those rows give
    the same projection. -/
theorem rowDot_congr {T' I' : ℕ} (x : (⟨2, ![T, H]⟩ : Shape).Idx → EReal) (w : (⟨2, ![I, H]⟩ : Shape).Idx → EReal)
    (x' : (⟨2, ![T', H]⟩ : Shape).Idx → EReal) (w' : (⟨2, ![I', H]⟩ : Shape).Idx → EReal)
    (t : Fin T) (i : Fin I) (t' : Fin T') (i' : Fin I')
    (hx : ∀ h : Fin H, x (ix2 t h) = x' (ix2 t' h)) (hw : ∀ h : Fin H, w (ix2 i h) = w' (ix2 i' h)) :
    rowDot x w t i = rowDot x' w' t' i' :=
  Finset.sum_congr rfl fun h _ => by rw [hx h, hw h]

/-- A hidden unit reads row `t` of the input and row `i` of the gate and up matrices, nothing else. -/
theorem hiddenAt_congr {T' I' : ℕ} (x : (⟨2, ![T, H]⟩ : Shape).Idx → EReal) (w1 w3 : (⟨2, ![I, H]⟩ : Shape).Idx → EReal)
    (x' : (⟨2, ![T', H]⟩ : Shape).Idx → EReal) (w1' w3' : (⟨2, ![I', H]⟩ : Shape).Idx → EReal)
    (t : Fin T) (i : Fin I) (t' : Fin T') (i' : Fin I')
    (hx : ∀ h : Fin H, x (ix2 t h) = x' (ix2 t' h)) (h1 : ∀ h : Fin H, w1 (ix2 i h) = w1' (ix2 i' h))
    (h3 : ∀ h : Fin H, w3 (ix2 i h) = w3' (ix2 i' h)) :
    hiddenAt x w1 w3 t i = hiddenAt x' w1' w3' t' i' := by
  unfold hiddenAt
  rw [rowDot_congr x w1 x' w1' t i t' i' hx h1, rowDot_congr x w3 x' w3' t i t' i' hx h3]

/-- With `a · b` hidden units, the output entry is the sum over the `a` tiles of `b` consecutive units of each tile's
    contribution. -/
theorem ffnAt_tiles (a b : ℕ) (x : (⟨2, ![T, H]⟩ : Shape).Idx → EReal) (w1 : (⟨2, ![a * b, H]⟩ : Shape).Idx → EReal)
    (w2 : (⟨2, ![E, a * b]⟩ : Shape).Idx → EReal) (w3 : (⟨2, ![a * b, H]⟩ : Shape).Idx → EReal) (t : Fin T) (e : Fin E) :
    ffnAt x w1 w2 w3 t e
      = ∑ s : Fin a, ∑ r : Fin b, hiddenAt x w1 w3 t ⟨s.val * b + r.val, LibTileSum.tile_pos_lt s r⟩
          * w2 (ix2 e ⟨s.val * b + r.val, LibTileSum.tile_pos_lt s r⟩) :=
  LibTileSum.sum_fin_mul a b fun i => hiddenAt x w1 w3 t i * w2 (ix2 e i)

end Cert.LibGatedFfn

end
-- ==== Proof.RefSpec.lean ====
/-
  The reference program computes the gated feed-forward layer, entry by entry.

  The reference forms the gate and up projections by two matrix products that contract the shared feature axis, applies
  `g · (1 / (1 + e^(−g)))` to the gate entry by entry — which is `g · σ(g)`, the quotient being the very expression that
  defines the logistic function on the extended reals, once the pattern of the literal `1.0` is read as the number one —,
  multiplies by the up projection, and contracts the hidden axis against the down matrix. Read at an output index
  `(t, e)` this is `∑ᵢ hiddenAt t i · w2(e, i)` with each projection `∑ₕ x(t, h) · w(i, h)`: the function `ffnAt`.
-/
import proofs.«118474_j62397284876805_2_alg».proof.Proof.Gen.ReferenceIdeal.Read
import proofs.«118474_j62397284876805_2_alg».proof.Proof.LibGatedFfn
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LibGatedFfn

/-- The reference's result, as a function of its four arguments, is the gated feed-forward layer at every index. -/
theorem result_eq (x0 : (⟨S4096x4096, .f32⟩ : BufTy).Contents (Elt Ideal)) (x1 : (⟨S14336x4096, .f32⟩ : BufTy).Contents (Elt Ideal))
    (x2 : (⟨S4096x14336, .f32⟩ : BufTy).Contents (Elt Ideal)) (x3 : (⟨S14336x4096, .f32⟩ : BufTy).Contents (Elt Ideal)) :
    val_main_v4 (F := Ideal) x0 x1 x2 x3 = fun j => ffnAt x0 x1 x2 x3 (j 0) (j 1) := by
  funext j
  -- the operand indices of the three products, in coordinates
  have el : ∀ (k : Fin 14336) (h : Fin 4096), lidx_main_v0 (lidx_main_v4 j k) h = ix2 (j 0) h := fun k h =>
    funext fun a => by match a with | ⟨0, _⟩ => rfl | ⟨1, _⟩ => rfl
  have er : ∀ (k : Fin 14336) (h : Fin 4096), ridx_main_v0 (lidx_main_v4 j k) h = ix2 k h := fun k h =>
    funext fun a => by match a with | ⟨0, _⟩ => rfl | ⟨1, _⟩ => rfl
  have el' : ∀ (k : Fin 14336) (h : Fin 4096), lidx_main_v1 (lidx_main_v4 j k) h = ix2 (j 0) h := fun k h =>
    funext fun a => by match a with | ⟨0, _⟩ => rfl | ⟨1, _⟩ => rfl
  have er' : ∀ (k : Fin 14336) (h : Fin 4096), ridx_main_v1 (lidx_main_v4 j k) h = ix2 k h := fun k h =>
    funext fun a => by match a with | ⟨0, _⟩ => rfl | ⟨1, _⟩ => rfl
  have e2 : ∀ k : Fin 14336, ridx_main_v4 j k = ix2 (j 1) k := fun k =>
    funext fun a => by match a with | ⟨0, _⟩ => rfl | ⟨1, _⟩ => rfl
  rw [val_main_v4_apply]
  unfold ffnAt hiddenAt rowDot
  refine Finset.sum_congr rfl fun k _ => ?_
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v1_apply]
  simp only [el, er, el', er', e2, Ideal.mulf_def, Ideal.addf_def, Ideal.hostDivf_def, Ideal.hostUnary_exp_def,
    Ideal.hostNegf_def, Ideal.negf_def, Ideal.ofBits_def, Ideal.ofBits_one_f32, Ideal.logistic]
  rfl

end Cert.ReferenceIdeal.RefValue

end
-- ==== Proof.LibTransDot.lean ====
/-
  A matrix product against a transposed right operand, read at an index, at the extended reals.

  For a rank-2 product `[M, K] · [N, K]ᵀ → [M, N]` (one contracted axis: the left operand's columns against the right
  operand's COLUMNS, no batch axis) accumulated into the zero block, the entry at `(p, e)` is the finite sum over the
  contracted coordinate `k` of `lhs (p, k) · rhs (e, k)`: row `p` of the left operand against row `e` of the right one.
  The product's dimension record enters only through four coordinate facts about its operand index maps (each a one-line
  computation for a literal record), so the lemma serves any such record at any extents.
-/
import Idealize.ShloMosaic.Lib.ValueIdx
import Idealize.ShloMosaic.PureOps.Ideal.Laws

noncomputable section

namespace Cert.LibTransDot

open Idealize.ShloMosaic Idealize.ShloMosaic.ValueIdx

/-- `[M, K] · [N, K]ᵀ` into the zero accumulator, at `(p, e)`: `∑ₖ lhs (p, k) · rhs (e, k)`. The hypotheses say that the
    record contracts ONE axis of extent `K`, that the left operand is read at (output row, contracted coordinate) and the
    right operand at (output column, contracted coordinate). -/
theorem matmul_zero_apply {M K N : ℕ} {φ₁ φ₂ : FTy}
    (D : DotDims ⟨2, ![M, K]⟩ ⟨2, ![N, K]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![M, K]⟩ φ₁) (rhs : FVec Ideal ⟨2, ![N, K]⟩ φ₂) (p : Fin M) (e : Fin N) :
    matmul D none lhs rhs (constant (F := Ideal) ⟨2, ![M, N]⟩ .f32 0x00000000#32) (ix2 p e)
      = ∑ k : Fin K, lhs (ix2 p k) * rhs (ix2 e k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 e k := funext fun a => Fin.ext (by
    match a with
    | ⟨0, _⟩ => exact hr0 _ _
    | ⟨1, _⟩ => exact (hr1 _ _).trans hk)
  rw [el, er]

end Cert.LibTransDot

end
-- ==== Proof.BlockStep.lean ====
/-
  What the kernel's body adds to its output block at one grid point, entry by entry, over the extended reals.

  At a grid point the body holds a block of 512 token rows of the input, a tile of 256 rows of the gate matrix and of the
  up matrix, and the matching 256 columns of the down matrix (as a [4096, 256] block). It forms the two projections of the
  block by matrix products that contract the feature axis, multiplies the gate projection by its logistic value and by
  the up projection, and contracts the 256 hidden units of the tile against the down block. So the value it stores at
  `(p, e)` is what the output block held there plus `∑ᵣ hiddenAt p r · w2(e, r)` over the tile's units: the gated
  feed-forward layer of the BLOCKS at `(p, e)`. The change of float format before the second product is the identity on
  extended reals, and each product into the zero block is the plain finite sum.
-/
import proofs.«118474_j62397284876805_2_alg».proof.Proof.Gen.KernelIdeal.Skeleton
import proofs.«118474_j62397284876805_2_alg».proof.Proof.LibTransDot
import proofs.«118474_j62397284876805_2_alg».proof.Proof.LibGatedFfn
import Idealize.ShloMosaic.Lib.Pipeline.Value

noncomputable section

open scoped BigOperators

namespace Cert.KernelIdeal.BlockStep

open Cert.KernelIdeal Cert.KernelIdeal.Gen Idealize.ShloMosaic Idealize.ShloMosaic.ValueIdx Cert.LibGatedFfn

/-- The product of a [512, 4096] block against the rows of a [256, 4096] tile (the gate and up projections). -/
abbrev dotProj := dot_S512x4096_S256x4096_S512x256_1_1_0_0_n_n
/-- The product of the [512, 256] hidden block against the rows of the [4096, 256] down block. -/
abbrev dotDown := dot_S512x256_S4096x256_S512x4096_1_1_0_0_n_n

/-! ## Where the two products read their operands -/

theorem proj_l0 (i : S512x256.Idx) (q : dotProj.contr.Idx) : (dotProj.lhsIdx i q 0).val = (i 0).val := by
  unfold DotDims.lhsIdx
  rw [dif_neg (show ¬(0 : Fin S512x4096.rank) ∈ dotProj.lhsBatch by decide),
    dif_pos (show (0 : Fin S512x4096.rank) ∈ dotProj.lhsNonContracting by decide)]
  rfl
theorem proj_l1 (i : S512x256.Idx) (q : dotProj.contr.Idx) : (dotProj.lhsIdx i q 1).val = (q ⟨0, by decide⟩).val :=
  dotProj.lhsIdx_val_of_single rfl i q
theorem proj_r0 (i : S512x256.Idx) (q : dotProj.contr.Idx) : (dotProj.rhsIdx i q 0).val = (i 1).val := by
  unfold DotDims.rhsIdx
  rw [dif_neg (show ¬(0 : Fin S256x4096.rank) ∈ dotProj.rhsBatch by decide),
    dif_pos (show (0 : Fin S256x4096.rank) ∈ dotProj.rhsNonContracting by decide)]
  rfl
theorem proj_r1 (i : S512x256.Idx) (q : dotProj.contr.Idx) : (dotProj.rhsIdx i q 1).val = (q ⟨0, by decide⟩).val :=
  dotProj.rhsIdx_val_of_single rfl i q

theorem down_l0 (i : S512x4096.Idx) (q : dotDown.contr.Idx) : (dotDown.lhsIdx i q 0).val = (i 0).val := by
  unfold DotDims.lhsIdx
  rw [dif_neg (show ¬(0 : Fin S512x256.rank) ∈ dotDown.lhsBatch by decide),
    dif_pos (show (0 : Fin S512x256.rank) ∈ dotDown.lhsNonContracting by decide)]
  rfl
theorem down_l1 (i : S512x4096.Idx) (q : dotDown.contr.Idx) : (dotDown.lhsIdx i q 1).val = (q ⟨0, by decide⟩).val :=
  dotDown.lhsIdx_val_of_single rfl i q
theorem down_r0 (i : S512x4096.Idx) (q : dotDown.contr.Idx) : (dotDown.rhsIdx i q 0).val = (i 1).val := by
  unfold DotDims.rhsIdx
  rw [dif_neg (show ¬(0 : Fin S4096x256.rank) ∈ dotDown.rhsBatch by decide),
    dif_pos (show (0 : Fin S4096x256.rank) ∈ dotDown.rhsNonContracting by decide)]
  rfl
theorem down_r1 (i : S512x4096.Idx) (q : dotDown.contr.Idx) : (dotDown.rhsIdx i q 1).val = (q ⟨0, by decide⟩).val :=
  dotDown.rhsIdx_val_of_single rfl i q

/-- A projection of the block at `(p, r)`: row `p` of the input block against row `r` of the tile. -/
theorem proj_apply (x : FVec Ideal S512x4096 .bf16) (w : FVec Ideal S256x4096 .bf16) (p : Fin 512) (r : Fin 256) :
    matmul dotProj none x w (constant (F := Ideal) S512x256 .f32 0x00000000#32) (ix2 p r) = rowDot x w p r :=
  LibTransDot.matmul_zero_apply dotProj rfl rfl proj_l0 proj_l1 proj_r0 proj_r1 x w p r

/-! ## The stored value -/

/-- The value the body stores at `(p, e)`: what the block held plus the tile's contribution, the layer of the blocks. The
    operands arrive in the order the kernel takes them — input, gate tile, up tile, down block. -/
theorem pay_apply (x0 : FVec Ideal S512x4096 .bf16) (x1 x2 : FVec Ideal S256x4096 .bf16) (x3 : FVec Ideal S4096x256 .bf16)
    (acc : FVec Ideal S512x4096 .f32) (p : Fin 512) (e : Fin 4096) :
    k0_pay2 (F := Ideal) x0 x1 x2 x3 acc (ix2 p e) = acc (ix2 p e) + ffnAt x0 x1 x3 x2 p e := by
  unfold k0_pay2
  simp only [shapeCast_self]
  refine congrArg (acc (ix2 p e) + ·) ?_
  refine (LibTransDot.matmul_zero_apply dotDown rfl rfl down_l0 down_l1 down_r0 down_r1 _ x3 p e).trans ?_
  refine Finset.sum_congr rfl fun r _ => ?_
  refine congrArg (· * x3 (ix2 e r)) ?_
  show matmul dotProj none x0 x1 (constant (F := Ideal) S512x256 .f32 0x00000000#32) (ix2 p r)
      * Ideal.logistic (matmul dotProj none x0 x1 (constant (F := Ideal) S512x256 .f32 0x00000000#32) (ix2 p r))
      * matmul dotProj none x0 x2 (constant (F := Ideal) S512x256 .f32 0x00000000#32) (ix2 p r) = hiddenAt x0 x1 x2 p r
  rw [proj_apply x0 x1 p r, proj_apply x0 x2 p r]
  rfl

end Cert.KernelIdeal.BlockStep

end
-- ==== Proof.BlockReads.lean ====
/-
  The blocks the kernel's body is handed at a grid point, as entries of the argument arrays.

  The grid has 8 × 56 points, point `n` being token block `n / 56` and hidden tile `n % 56`. Before the grid runs, the
  program changes the float format of each argument; on extended reals that changes nothing. So at point `n`

    the input block's row `p` is the input's row (n / 56) · 512 + p,
    the gate and up tiles' row `r` is row (n % 56) · 256 + r of the gate and the up matrix,
    the down block's column `r` is column (n % 56) · 256 + r of the down matrix,

  the other coordinate unchanged. The block indices are the printed index maps, decided once over the grid's points. The
  row number is written with `n / 56 % 8` so that it is a row of the input for every natural `n`, not only for the
  grid's points; on the grid `n / 56 < 8` and the two agree.
-/
import proofs.«118474_j62397284876805_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.BlockReads

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The token row that row `p` of point `n`'s input block is. -/
def tokRow (n : ℕ) (p : Fin 512) : Fin 4096 := ⟨n / 56 % 8 * 512 + p.val, by omega⟩
/-- The hidden unit that unit `r` of point `n`'s tile is. -/
def unitOf (n : ℕ) (r : Fin 256) : Fin 14336 := ⟨n % 56 * 256 + r.val, by omega⟩

/-- The printed index maps over the grid: the input's block index is the token block, the weight tiles' the hidden tile. -/
theorem idx_facts : ∀ t : Fin cfg0.N,
    win0_0.index t (0 : Fin 2) = t.val / 56 ∧ win0_0.index t (1 : Fin 2) = 0
    ∧ win0_1.index t (0 : Fin 2) = t.val % 56 ∧ win0_1.index t (1 : Fin 2) = 0
    ∧ win0_2.index t (0 : Fin 2) = t.val % 56 ∧ win0_2.index t (1 : Fin 2) = 0
    ∧ win0_3.index t (0 : Fin 2) = 0 ∧ win0_3.index t (1 : Fin 2) = t.val % 56 :=
  (by decide +kernel : ∀ t : Fin grid0.N, _)

/-! ## The arrays the grid finds: the arguments, their float format changed -/

theorem found_x (c : Dev nD) (i : S4096x4096.Idx) :
    (V m c main_v0 : S4096x4096.Idx → EReal) i = (m ((c : Thread nD τ).loc main_arg0) : S4096x4096.Idx → EReal) i := by
  have e : @Eq (S4096x4096.Idx → EReal) (V m c main_v0)
      (truncf (F := Ideal) .bf16 (m ((c : Thread nD τ).loc main_arg0) : FVec Ideal S4096x4096 .f32) bitsLt_bf16_f32) := by
    dsimp only [Gen.V, Gen.hostOps0]; after_results <;> rfl
  exact congrFun e i

theorem found_w1 (c : Dev nD) (i : S14336x4096.Idx) :
    (V m c main_v1 : S14336x4096.Idx → EReal) i = (m ((c : Thread nD τ).loc main_arg1) : S14336x4096.Idx → EReal) i := by
  have e : @Eq (S14336x4096.Idx → EReal) (V m c main_v1)
      (truncf (F := Ideal) .bf16 (m ((c : Thread nD τ).loc main_arg1) : FVec Ideal S14336x4096 .f32) bitsLt_bf16_f32) := by
    dsimp only [Gen.V, Gen.hostOps0]; after_results <;> rfl
  exact congrFun e i

theorem found_w3 (c : Dev nD) (i : S14336x4096.Idx) :
    (V m c main_v2 : S14336x4096.Idx → EReal) i = (m ((c : Thread nD τ).loc main_arg3) : S14336x4096.Idx → EReal) i := by
  have e : @Eq (S14336x4096.Idx → EReal) (V m c main_v2)
      (truncf (F := Ideal) .bf16 (m ((c : Thread nD τ).loc main_arg3) : FVec Ideal S14336x4096 .f32) bitsLt_bf16_f32) := by
    dsimp only [Gen.V, Gen.hostOps0]; after_results <;> rfl
  exact congrFun e i

theorem found_w2 (c : Dev nD) (i : S4096x14336.Idx) :
    (V m c main_v3 : S4096x14336.Idx → EReal) i = (m ((c : Thread nD τ).loc main_arg2) : S4096x14336.Idx → EReal) i := by
  have e : @Eq (S4096x14336.Idx → EReal) (V m c main_v3)
      (truncf (F := Ideal) .bf16 (m ((c : Thread nD τ).loc main_arg2) : FVec Ideal S4096x14336 .f32) bitsLt_bf16_f32) := by
    dsimp only [Gen.V, Gen.hostOps0]; after_results <;> rfl
  exact congrFun e i

/-! ## The four blocks at a point -/

/-- Row `p` of the input block at point `t` is token row `tokRow t p` of the input. -/
theorem blk_x (c : Dev nD) (t : Fin cfg0.N) (p : Fin 512) (h : Fin 4096) :
    iblk m c 0 t (ix2 p h) = m ((c : Thread nD τ).loc main_arg0) (ix2 (tokRow t.val p) h) := by
  have hN : t.val < 448 := lt_of_lt_of_eq t.isLt N_0
  obtain ⟨e0, e1, -⟩ := idx_facts t
  show V m c main_v0 (((cfg0.win 0).blk t).view.emb (ix2 p h)) = _
  refine (found_x m c _).trans ?_
  refine congrArg (m _) (funext fun a => Fin.ext ?_)
  match a with
  | ⟨0, _⟩ => show win0_0.index t (0 : Fin 2) * 512 + 1 * p.val = t.val / 56 % 8 * 512 + p.val; omega
  | ⟨1, _⟩ => show win0_0.index t (1 : Fin 2) * 4096 + 1 * h.val = h.val; omega

/-- Row `r` of the gate tile at point `t` is row `unitOf t r` of the gate matrix. -/
theorem blk_w1 (c : Dev nD) (t : Fin cfg0.N) (r : Fin 256) (h : Fin 4096) :
    iblk m c 1 t (ix2 r h) = m ((c : Thread nD τ).loc main_arg1) (ix2 (unitOf t.val r) h) := by
  obtain ⟨-, -, e0, e1, -⟩ := idx_facts t
  show V m c main_v1 (((cfg0.win 1).blk t).view.emb (ix2 r h)) = _
  refine (found_w1 m c _).trans ?_
  refine congrArg (m _) (funext fun a => Fin.ext ?_)
  match a with
  | ⟨0, _⟩ => show win0_1.index t (0 : Fin 2) * 256 + 1 * r.val = t.val % 56 * 256 + r.val; omega
  | ⟨1, _⟩ => show win0_1.index t (1 : Fin 2) * 4096 + 1 * h.val = h.val; omega

/-- Row `r` of the up tile at point `t` is row `unitOf t r` of the up matrix. -/
theorem blk_w3 (c : Dev nD) (t : Fin cfg0.N) (r : Fin 256) (h : Fin 4096) :
    iblk m c 2 t (ix2 r h) = m ((c : Thread nD τ).loc main_arg3) (ix2 (unitOf t.val r) h) := by
  obtain ⟨-, -, -, -, e0, e1, -⟩ := idx_facts t
  show V m c main_v2 (((cfg0.win 2).blk t).view.emb (ix2 r h)) = _
  refine (found_w3 m c _).trans ?_
  refine congrArg (m _) (funext fun a => Fin.ext ?_)
  match a with
  | ⟨0, _⟩ => show win0_2.index t (0 : Fin 2) * 256 + 1 * r.val = t.val % 56 * 256 + r.val; omega
  | ⟨1, _⟩ => show win0_2.index t (1 : Fin 2) * 4096 + 1 * h.val = h.val; omega

/-- Column `r` of the down block at point `t` is column `unitOf t r` of the down matrix. -/
theorem blk_w2 (c : Dev nD) (t : Fin cfg0.N) (e : Fin 4096) (r : Fin 256) :
    iblk m c 3 t (ix2 e r) = m ((c : Thread nD τ).loc main_arg2) (ix2 e (unitOf t.val r)) := by
  obtain ⟨-, -, -, -, -, -, e0, e1⟩ := idx_facts t
  show V m c main_v3 (((cfg0.win 3).blk t).view.emb (ix2 e r)) = _
  refine (found_w2 m c _).trans ?_
  refine congrArg (m _) (funext fun a => Fin.ext ?_)
  match a with
  | ⟨0, _⟩ => show win0_3.index t (0 : Fin 2) * 4096 + 1 * e.val = e.val; omega
  | ⟨1, _⟩ => show win0_3.index t (1 : Fin 2) * 256 + 1 * r.val = t.val % 56 * 256 + r.val; omega

end Cert.KernelIdeal.BlockReads

end
-- ==== Proof.LayerValue.lean ====
/-
  The kernel's result array is the gated feed-forward layer of its arguments, entry by entry.

  For each block of 512 token rows the kernel visits the 56 tiles of 256 hidden units in turn, keeping the output block
  in place: at the first tile it clears the block and adds that tile's contribution, at each later tile it adds the
  tile's contribution to what the tile before left, and after the last tile the block is written back. The
  contribution of the tile at grid point `n` to position `(p, e)` of the block is

    addend n (p, e) = ∑ᵣ hiddenAt (token row of p at n) (unit r of n's tile) · w2(e, unit r of n's tile),

  the layer of the point's blocks read off the argument arrays. So the block ends at zero plus the sum of its 56
  contributions, and the sum over the 56 tiles of the sums over their 256 units is the sum over all 14336 hidden units:
  the layer's own sum, only regrouped. Sums of extended reals regroup freely, so nothing is asked of the entries.
-/
import proofs.«118474_j62397284876805_2_alg».proof.Proof.Gen.KernelIdeal.Value
import proofs.«118474_j62397284876805_2_alg».proof.Proof.BlockStep
import proofs.«118474_j62397284876805_2_alg».proof.Proof.BlockReads
import proofs.«118474_j62397284876805_2_alg».proof.Proof.LibGatedFfn

noncomputable section

open scoped BigOperators

namespace Cert.KernelIdeal.LayerValue

open Cert.KernelIdeal Cert.KernelIdeal.Gen Cert.KernelIdeal.Value Idealize.ShloMosaic Idealize.ShloMosaic.TcCoe Idealize.SL.Sem
open Idealize.ShloMosaic.ValueIdx Cert.LibGatedFfn Cert.KernelIdeal.BlockStep Cert.KernelIdeal.BlockReads

variable (m : (ℓ : Loc nD τ sig) → Buf (Elt Ideal) ℓ)

/-- The input on core `c`. -/
abbrev argX (c : Dev nD) : S4096x4096.Idx → EReal := m ((c : Thread nD τ).loc main_arg0)
/-- The gate matrix on core `c`. -/
abbrev argW1 (c : Dev nD) : S14336x4096.Idx → EReal := m ((c : Thread nD τ).loc main_arg1)
/-- The down matrix on core `c`. -/
abbrev argW2 (c : Dev nD) : S4096x14336.Idx → EReal := m ((c : Thread nD τ).loc main_arg2)
/-- The up matrix on core `c`. -/
abbrev argW3 (c : Dev nD) : S14336x4096.Idx → EReal := m ((c : Thread nD τ).loc main_arg3)

/-- What grid point `n` adds at position `y` of its output block: the contribution of the point's tile of hidden units. -/
def addend (c : Dev nD) (n : ℕ) (y : S512x4096.Idx) : EReal :=
  ∑ r : Fin 256, hiddenAt (argX m c) (argW1 m c) (argW3 m c) (tokRow n (y 0)) (unitOf n r)
    * argW2 m c (ix2 (y 1) (unitOf n r))

/-- One point's step: the body's stored value over the point's blocks is what the block held plus the point's addend. -/
theorem step_apply (c : Dev nD) (t : Fin cfg0.N) (acc : Vec Ideal S512x4096 .f32) (y : S512x4096.Idx) :
    k0_pay2 (F := Ideal) (iblk m c 0 t) (iblk m c 1 t) (iblk m c 2 t) (iblk m c 3 t) acc y = acc y + addend m c t.val y := by
  obtain ⟨p, e, rfl⟩ : ∃ (p : Fin 512) (e : Fin 4096), y = ix2 p e := ⟨y 0, y 1, eq_ix2 y⟩
  refine (pay_apply (iblk m c 0 t) (iblk m c 1 t) (iblk m c 2 t) (iblk m c 3 t) acc p e).trans ?_
  refine congrArg (acc (ix2 p e) + ·) ?_
  unfold ffnAt addend
  refine Finset.sum_congr rfl fun r _ => ?_
  exact congrArg₂ (· * ·)
    (hiddenAt_congr (iblk m c 0 t) (iblk m c 1 t) (iblk m c 2 t) (argX m c) (argW1 m c) (argW3 m c) p r (tokRow t.val p) (unitOf t.val r)
      (fun h => blk_x m c t p h) (fun h => blk_w1 m c t r h) (fun h => blk_w3 m c t r h))
    (blk_w2 m c t e r)

/-- The output block after the 56 points of token block `q`: the sum of their addends. -/
theorem fold_apply (c : Dev nD) (q : ℕ) (hq : 56 * q + 55 < cfg0.N) (y : S512x4096.Idx) :
    Pipeline.accAt (reset4 m c) (step4 m c) (56 * q) 55 hq y = ∑ s ∈ Finset.range 56, addend m c (56 * q + s) y := by
  have h := Pipeline.accAt_add_apply (β := EReal) (reset4 m c) (step4 m c) (k0_pay1 (F := Ideal)) (addend m c) (56 * q) 55
    (fun h i => step_apply m c ⟨56 * q, h⟩ (k0_pay1 (F := Ideal)) i)
    (fun n h acc i _ _ => step_apply m c ⟨n, h⟩ acc i) 55 le_rfl hq y
  refine h.trans ?_
  show Ideal.ofBits .f32 0x00000000#32 + _ = _
  rw [Ideal.ofBits_zero_f32, zero_add]

/-- THE RESULT ARRAY: entry `(t, e)` is the layer's output feature `e` of token `t`. -/
theorem result_eq (c : Dev nD) :
    G4 m c = fun j => ffnAt (argX m c) (argW1 m c) (argW2 m c) (argW3 m c) (j 0) (j 1) := by
  funext j
  have h0 : (j 0).val < 4096 := idx2_lt0 j
  have h1 : (j 1).val < 4096 := idx2_lt1 j
  have hN : cfg0.N = 448 := N_0
  have hrun : run4Of j = (j 0).val / 512 := by
    show 1 * ((j 0).val / 512 - 0) + 1 * ((j 1).val / 4096 - 0) = (j 0).val / 512
    omega
  have hq : 56 * run4Of j + 55 < cfg0.N := by rw [hN, hrun]; omega
  unfold G4
  rw [dif_pos hq, fold_apply m c (run4Of j) hq (loc4Of j), Finset.sum_range]
  refine ((ffnAt_tiles 56 256 (argX m c) (argW1 m c) (argW2 m c) (argW3 m c) (j 0) (j 1)).trans ?_).symm
  refine Finset.sum_congr rfl fun s _ => ?_
  unfold addend
  refine Finset.sum_congr rfl fun r _ => ?_
  have hs : s.val < 56 := s.isLt
  have hr : r.val < 256 := r.isLt
  have er : tokRow (56 * run4Of j + s.val) (loc4Of j 0) = j 0 := Fin.ext (by
    show (56 * run4Of j + s.val) / 56 % 8 * 512 + (j 0).val % 512 = (j 0).val
    rw [hrun]; omega)
  have eu : unitOf (56 * run4Of j + s.val) r = ⟨s.val * 256 + r.val, LibTileSum.tile_pos_lt s r⟩ := Fin.ext (by
    show (56 * run4Of j + s.val) % 56 * 256 + r.val = s.val * 256 + r.val
    rw [hrun]; omega)
  have ec : loc4Of j 1 = j 1 := Fin.ext (by
    show (j 1).val % 4096 = (j 1).val
    omega)
  rw [er, eu, ec]

end Cert.KernelIdeal.LayerValue

end
-- ==== Proof.lean ====
/-
  The kernel and the reference compute the same gated feed-forward layer.

  Both programs take an input `x : [4096, 4096]`, a gate matrix `w1` and an up matrix `w3 : [14336, 4096]` and a down
  matrix `w2 : [4096, 14336]`, and return `out(t, e) = ∑ᵢ (g · σ(g) · u)(t, i) · w2(e, i)` with `g(t, i) = ∑ₕ x(t, h) · w1(i, h)`,
  `u(t, i) = ∑ₕ x(t, h) · w3(i, h)` and `σ` the logistic function (Proof/LibGatedFfn.lean).

  The reference forms the three products whole and spells `σ(g)` as `1 / (1 + e^(−g))`, which is the logistic function's
  definition on the extended reals (Proof/RefSpec.lean). The kernel works on blocks: 512 token rows at a time, it runs
  through the 14336 hidden units in 56 tiles of 256, adding each tile's contribution `∑ᵣ (g · σ(g) · u)(t, r) · w2(e, r)`
  to an output block it cleared at the first tile (Proof/BlockStep.lean for one tile's contribution, Proof/BlockReads.lean
  for which rows of the arguments a tile reads, Proof/LayerValue.lean for the 56 contributions summed). The changes of
  float format the kernel makes on the way are the identity on extended reals. So the two results differ only in how
  one finite sum is grouped, and sums of extended reals regroup freely: the claim holds for all inputs, and the
  precondition is not used.

  The two idealized programs' frames are their value runs with the result dropped; the word-level kernel's frame is
  its generated frame; the idealization rewrote nothing, so there is nothing to preserve.
-/
import proofs.«118474_j62397284876805_2_alg».proof.Defs
import proofs.«118474_j62397284876805_2_alg».proof.Proof.Gen.Kernel.Frame
import proofs.«118474_j62397284876805_2_alg».proof.Proof.Gen.KernelIdeal.Value
import proofs.«118474_j62397284876805_2_alg».proof.Proof.Gen.Pre_finite_inputs
import proofs.«118474_j62397284876805_2_alg».proof.Proof.Gen.ReferenceIdeal.Run
import proofs.«118474_j62397284876805_2_alg».proof.Proof.RefSpec
import proofs.«118474_j62397284876805_2_alg».proof.Proof.LayerValue
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's are both the layer
    of those arguments, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Read.val_main_v4_eq _ _ _ _).trans ?_
  exact (Cert.ReferenceIdeal.RefValue.result_eq _ _ _ _).trans (Cert.KernelIdeal.LayerValue.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
